-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2074x2048 : Shape := ⟨2, ![2074, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2074x2048 : S_.BroadcastsInDim S2074x2048 (![] : Fin 0 → Fin S2074x2048.rank)
  reducesTo_S2074x2048_S_d0_1 : S2074x2048.ReducesTo [0, 1] S_

variable [Facts]

def fn {F : FTy → Type} [FloatOps F] (main_arg0 : FVec F S4096x2048 .f32) (main_arg1 : FVec F S2074x2048 .f32) (main_arg2 : FVec F S2074x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2074x2048 .f32 := Host.absf main_arg1
  let main_cst_0 : FVec F S_ .f32 := constant S_ .f32 0x7F800000#32
  let main_v5 : FVec F S2074x2048 .f32 := broadcastInDim S2074x2048 ![] bcast_S_S2074x2048 main_cst_0
  let main_v6 : IVec S2074x2048 1 := cmpf .olt main_v4 main_v5
  let main_c_1 : IVec S_ 1 := constantI S_ 1 1#1
  let main_v7 : IVec S_ 1 := (fun x v => Host.reduce IntOp.andi x v reducesTo_S2074x2048_S_d0_1 h_S_) main_v6 main_c_1
  let main_v8 : IVec S_ 1 := andi main_v3 main_v7
  let main_v9 : FVec F S2074x2048 .f32 := Host.absf main_arg2
  let main_cst_2 : FVec F S_ .f32 := constant S_ .f32 0x7F800000#32
  let main_v10 : FVec F S2074x2048 .f32 := broadcastInDim S2074x2048 ![] bcast_S_S2074x2048 main_cst_2
  let main_v11 : IVec S2074x2048 1 := cmpf .olt main_v9 main_v10
  let main_c_3 : IVec S_ 1 := constantI S_ 1 1#1
  let main_v12 : IVec S_ 1 := (fun x v => Host.reduce IntOp.andi x v reducesTo_S2074x2048_S_d0_1 h_S_) main_v11 main_c_3
  let main_v13 : IVec S_ 1 := andi main_v8 main_v12
  main_v13
-- ==== Kernel.lean ====
abbrev S4096x2048 : Shape := ⟨2, ![4096, 2048]⟩
abbrev S2074x2048 : Shape := ⟨2, ![2074, 2048]⟩
abbrev S512x2048 : Shape := ⟨2, ![512, 2048]⟩
abbrev S512x2074 : Shape := ⟨2, ![512, 2074]⟩
abbrev S_ : Shape := ⟨0, ![]⟩

abbrev nBuf : Space → Nat
  | .hbm => 11
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2074x2048, .f32⟩
  | .hbm, ⟨2, _⟩ => ⟨S2074x2048, .f32⟩
  | .hbm, ⟨3, _⟩ => ⟨S4096x2048, .bf16⟩
  | .hbm, ⟨4, _⟩ => ⟨S2074x2048, .bf16⟩
  | .hbm, ⟨5, _⟩ => ⟨S2074x2048, .bf16⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S4096x2048, .f32⟩
  | .hbm, ⟨10, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2074x2048, .bf16⟩
  | .local _ .vmem, ⟨3, _⟩ => ⟨S2074x2048, .bf16⟩
  | .local _ .vmem, ⟨4, _⟩ => ⟨S512x2048, .f32⟩
  | .local _ .vmem, ⟨5, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2074x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2074x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2074x2048_S2074x2048_0_0 : ∀ a, (![0, 0] : Fin 2 → Nat) a + S2074x2048.size a ≤ S2074x2048.size a
  h_S2074x2048 : 0 < S2074x2048.numel
  shapeCasts_S2074x2048_S2074x2048 : S2074x2048.ShapeCasts S2074x2048
  reducesTo_S4096x2048_S_d0_1 : S4096x2048.ReducesTo [0, 1] S_
  h_S_ : 0 < S_.numel
  bcast_S_S4096x2048 : S_.BroadcastsInDim S4096x2048 (![] : Fin 0 → Fin S4096x2048.rank)
  dot_S512x2048_S2074x2048_S512x2074_1_1_0_0_n_n_wf : DotDims.WF S512x2048 S2074x2048 S512x2074 [1] [1] [0] [0] [] []
  dot_S512x2074_S2074x2048_S512x2048_1_0_0_1_n_n_wf : DotDims.WF S512x2074 S2074x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2074x2048.size a ≤ S2074x2048.size a
  hwx0_1 : ∀ i : grid0.Coords, EltTy.bits .bf16 = 32 ∨ (Rect.block (s := S2074x2048) S2074x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2074x2048.size a ≤ S2074x2048.size a
  hwx0_2 : ∀ i : grid0.Coords, EltTy.bits .bf16 = 32 ∨ (Rect.block (s := S2074x2048) S2074x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x2048.size a
  hwx0_3 : ∀ i : grid0.Coords, EltTy.bits .f32 = 32 ∨ (Rect.block (s := S4096x2048) S512x2048.size (cc0_transform_3 i) (hinb0_3 i)).WholeWords (EltTy.packing .f32)

variable [Facts₀]

def dot_S512x2048_S2074x2048_S512x2074_1_1_0_0_n_n : DotDims S512x2048 S2074x2048 S512x2074 where
  lhsContracting := [1]
  rhsContracting := [1]
  lhsNonContracting := [0]
  rhsNonContracting := [0]
  lhsBatch := []
  rhsBatch := []
  wf := dot_S512x2048_S2074x2048_S512x2074_1_1_0_0_n_n_wf
def dot_S512x2074_S2074x2048_S512x2048_1_0_0_1_n_n : DotDims S512x2074 S2074x2048 S512x2048 where
  lhsContracting := [1]
  rhsContracting := [0]
  lhsNonContracting := [0]
  rhsNonContracting := [1]
  lhsBatch := []
  rhsBatch := []
  wf := dot_S512x2074_S2074x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2074x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2074x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2074x2048 : Shape := ⟨2, ![2074, 2048]⟩
abbrev S2048x2074 : Shape := ⟨2, ![2048, 2074]⟩
abbrev S4096x2074 : Shape := ⟨2, ![4096, 2074]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2074x2048, .f32⟩
  | .hbm, ⟨2, _⟩ => ⟨S2074x2048, .f32⟩
  | .hbm, ⟨3, _⟩ => ⟨S2048x2074, .f32⟩
  | .hbm, ⟨4, _⟩ => ⟨S4096x2074, .f32⟩
  | .hbm, ⟨5, _⟩ => ⟨S4096x2048, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S2074x2048_S2048x2074_1_0 : S2074x2048.Transposes [1, 0] S2048x2074
  reducesTo_S4096x2048_S_d0_1 : S4096x2048.ReducesTo [0, 1] S_
  h_S_ : 0 < S_.numel
  bcast_S_S4096x2048 : S_.BroadcastsInDim S4096x2048 (![] : Fin 0 → Fin S4096x2048.rank)
  dot_S4096x2048_S2048x2074_S4096x2074_1_0_0_1_n_n_wf : DotDims.WF S4096x2048 S2048x2074 S4096x2074 [1] [0] [0] [1] [] []
  dot_S4096x2074_S2074x2048_S4096x2048_1_0_0_1_n_n_wf : DotDims.WF S4096x2074 S2074x2048 S4096x2048 [1] [0] [0] [1] [] []

variable [Facts₀]

def dot_S4096x2048_S2048x2074_S4096x2074_1_0_0_1_n_n : DotDims S4096x2048 S2048x2074 S4096x2074 where
  lhsContracting := [1]
  rhsContracting := [0]
  lhsNonContracting := [0]
  rhsNonContracting := [1]
  lhsBatch := []
  rhsBatch := []
  wf := dot_S4096x2048_S2048x2074_S4096x2074_1_0_0_1_n_n_wf
def dot_S4096x2074_S2074x2048_S4096x2048_1_0_0_1_n_n : DotDims S4096x2074 S2074x2048 S4096x2048 where
  lhsContracting := [1]
  rhsContracting := [0]
  lhsNonContracting := [0]
  rhsNonContracting := [1]
  lhsBatch := []
  rhsBatch := []
  wf := dot_S4096x2074_S2074x2048_S4096x2048_1_0_0_1_n_n_wf

class Facts : Prop extends Facts₀ where

variable [Facts]
-- ==== Proof.Spec.lean ====
/-
  What both programs compute, stated once over literal shapes and importing neither program.

  With x of shape [4096, 2048] and W, C of shape [2074, 2048], the unnormalised result is the matrix product
  (x · Wᵀ) · C: entry (b, l) is  ∑ f, (∑ k, x[b,k] · W[f,k]) · C[f,l],  the inner sum being entry (b, f) of x · Wᵀ.
  The result proper divides every entry by the maximum entry of that matrix (the fold starts from -∞).
  On the extended reals a change of float format is the identity, so the kernel's narrowing of its operands and of
  the intermediate product leaves these sums as they are; and the two programs group the two sums in the same way,
  so no distributive law, and hence no finiteness of the inputs, is needed to join them.
-/
import Idealize.ShloMosaic.PureOps.Ideal
import Idealize.ShloMosaic.Lib.ValueIdx

noncomputable section

namespace Cert.FreqMix

open Idealize.ShloMosaic Idealize.ShloMosaic.ValueIdx
open scoped BigOperators

/-- The shape of x and of the result. -/
abbrev SX : Shape := ⟨2, ![4096, 2048]⟩
/-- The shape of W and of C. -/
abbrev SW : Shape := ⟨2, ![2074, 2048]⟩
/-- The shape of a scalar. -/
abbrev S0 : Shape := ⟨0, ![]⟩

/-- Entry (b, f) of x · Wᵀ: row b of x against row f of W. -/
def proj (x : SX.Idx → EReal) (w : SW.Idx → EReal) (b : Fin 4096) (f : Fin 2074) : EReal :=
  ∑ k : Fin 2048, x (ix2 b k) * w (ix2 f k)

/-- Entry (b, l) of (x · Wᵀ) · C. -/
def entry (x : SX.Idx → EReal) (w cs : SW.Idx → EReal) (b : Fin 4096) (l : Fin 2048) : EReal :=
  ∑ f : Fin 2074, proj x w b f * cs (ix2 f l)

/-- The whole unnormalised matrix (x · Wᵀ) · C, index by index. -/
def mix (x : SX.Idx → EReal) (w cs : SW.Idx → EReal) : SX.Idx → EReal :=
  fun i => entry x w cs ⟨(i 0).val, (i 0).isLt⟩ ⟨(i 1).val, (i 1).isLt⟩

theorem mix_ix2 (x : SX.Idx → EReal) (w cs : SW.Idx → EReal) (b : Fin 4096) (l : Fin 2048) :
    mix x w cs (ix2 b l) = entry x w cs b l := rfl

/-- Division of every entry by the maximum entry (the maximum folded from -∞, then spread over the matrix): the last
    four host operations of both programs, kept as one function of the matrix they are applied to. -/
def normalize (hr : SX.ReducesTo [0, 1] S0) (hs : 0 < S0.numel) (hb : S0.BroadcastsInDim SX (![] : Fin 0 → Fin SX.rank))
    (u : FVec Ideal SX .f32) : FVec Ideal SX .f32 :=
  Host.divf (F := Ideal) u
    (broadcastInDim SX ![] hb
      (Host.reduce (FloatOps.maximumf (F := Ideal) (φ := .f32)) u (constant (F := Ideal) S0 .f32 0xFF800000#32) hr hs))

end Cert.FreqMix

end
-- ==== Proof.RefSide.lean ====
/-
  The reference's result, read index by index: its second matrix product is `mix` of the three arguments, and its
  result is `normalize` of that.

  The reference first transposes W, so its first product contracts column k of x with ROW k of Wᵀ, which is
  entry (f, k) of W: reading the transpose at an index turns the reference's spelling into the specification's
  ∑ k, x[b,k] · W[f,k]. The second product contracts that over f against C[f,l]. Nothing else happens before the
  maximum and the division, which are the specification's `normalize` applied to the product.
-/
import proofs.«115257_j68659347194252_1_alg».proof.Proof.Gen.ReferenceIdeal.Read
import proofs.«115257_j68659347194252_1_alg».proof.Proof.Spec

noncomputable section

namespace Cert.FreqMix.Ref

open Cert.ReferenceIdeal Cert.ReferenceIdeal.Read Cert.FreqMix
open Idealize.ShloMosaic Idealize.ShloMosaic.ValueIdx
open scoped BigOperators

/-- The reference's second product, before normalisation, is (x · Wᵀ) · C entry by entry. -/
theorem product_eq_mix (x0 : (⟨S4096x2048, .f32⟩ : BufTy).Contents (Elt Ideal))
    (x1 x2 : (⟨S2074x2048, .f32⟩ : BufTy).Contents (Elt Ideal)) :
    val_main_v2 (F := Ideal) x0 x1 x2 = mix x0 x1 x2 := by
  funext i
  obtain ⟨b, l, rfl⟩ : ∃ (b : Fin 4096) (l : Fin 2048), i = ix2 b l := ⟨i 0, i 1, eq_ix2 i⟩
  rw [val_main_v2_apply, mix_ix2]
  unfold entry
  refine Finset.sum_congr rfl fun f _ => ?_
  -- the right factor: row f, column l of C
  have eC : ridx_main_v2 (ix2 b l) f = ix2 f l :=
    funext fun a => Fin.ext (by match a with | ⟨0, _⟩ => rfl | ⟨1, _⟩ => rfl)
  rw [eC, val_main_v1_apply]
  unfold proj
  refine congrArg (· * x2 (ix2 f l)) ?_
  refine Finset.sum_congr rfl fun k _ => ?_
  -- the left factor of the inner product: row b, column k of x
  have eX : lidx_main_v1 (lidx_main_v2 (ix2 b l) f) k = ix2 b k :=
    funext fun a => Fin.ext (by match a with | ⟨0, _⟩ => rfl | ⟨1, _⟩ => rfl)
  -- its right factor: entry (k, f) of Wᵀ, which is entry (f, k) of W
  have eW : idx_main_v0 (ridx_main_v1 (lidx_main_v2 (ix2 b l) f) k) = ix2 f k :=
    funext fun a => Fin.ext (by match a with | ⟨0, _⟩ => rfl | ⟨1, _⟩ => rfl)
  rw [val_main_v0_apply, eX, eW]

/-- The reference's result is the normalised product, whichever proofs of the shape side conditions are supplied. -/
theorem result_eq (hr : SX.ReducesTo [0, 1] S0) (hs : 0 < S0.numel) (hb : S0.BroadcastsInDim SX (![] : Fin 0 → Fin SX.rank))
    (x0 : (⟨S4096x2048, .f32⟩ : BufTy).Contents (Elt Ideal))
    (x1 x2 : (⟨S2074x2048, .f32⟩ : BufTy).Contents (Elt Ideal)) :
    val_main_v5 (F := Ideal) x0 x1 x2 = normalize hr hs hb (mix x0 x1 x2) := by
  have h : val_main_v5 (F := Ideal) x0 x1 x2 = normalize hr hs hb (val_main_v2 (F := Ideal) x0 x1 x2) := rfl
  rw [h, product_eq_mix]

end Cert.FreqMix.Ref

end
-- ==== Proof.Body.lean ====
/-
  What the kernel's body computes from its three loaded blocks, read at one entry of the output block.

  The body holds a block of 512 rows of x and the whole of W and C. Its first product contracts the second axis of
  the x-block with the second axis of W, so entry (p, f) is ∑ k, x[p,k] · W[f,k]: row against row, no transpose is
  ever formed. Its second product contracts that over f against C[f,q]. Both accumulate into a zero block, and zero
  is neutral for the extended reals' sum; the narrowing of the first product's result is the identity there.
  So entry (p, q) of what the body stores is  ∑ f, (∑ k, x[p,k] · W[f,k]) · C[f,q].
-/
import proofs.«115257_j68659347194252_1_alg».proof.Proof.Gen.KernelIdeal.Skeleton
import Idealize.ShloMosaic.PureOps.Ideal.Laws
import Idealize.ShloMosaic.Lib.Pipeline.Value
import Idealize.ShloMosaic.Lib.ValueIdx

noncomputable section

namespace Cert.FreqMix.Body

open Cert.KernelIdeal Cert.KernelIdeal.Gen
open Idealize.ShloMosaic Idealize.ShloMosaic.ValueIdx
open scoped BigOperators

/-! ## The first product: rows of the x-block against rows of W -/

theorem rowsX_0 (j : S512x2074.Idx) (q : dot_S512x2048_S2074x2048_S512x2074_1_1_0_0_n_n.contr.Idx) :
    (dot_S512x2048_S2074x2048_S512x2074_1_1_0_0_n_n.lhsIdx j q 0).val = (j 0).val := by
  unfold DotDims.lhsIdx
  rw [dif_neg (show ¬(0 : Fin S512x2048.rank) ∈ dot_S512x2048_S2074x2048_S512x2074_1_1_0_0_n_n.lhsBatch by decide),
    dif_pos (show (0 : Fin S512x2048.rank) ∈ dot_S512x2048_S2074x2048_S512x2074_1_1_0_0_n_n.lhsNonContracting by decide)]
  rfl
theorem rowsX_1 (j : S512x2074.Idx) (q : dot_S512x2048_S2074x2048_S512x2074_1_1_0_0_n_n.contr.Idx) :
    (dot_S512x2048_S2074x2048_S512x2074_1_1_0_0_n_n.lhsIdx j q 1).val = (q ⟨0, by decide⟩).val :=
  dot_S512x2048_S2074x2048_S512x2074_1_1_0_0_n_n.lhsIdx_val_of_single rfl j q
theorem rowsW_0 (j : S512x2074.Idx) (q : dot_S512x2048_S2074x2048_S512x2074_1_1_0_0_n_n.contr.Idx) :
    (dot_S512x2048_S2074x2048_S512x2074_1_1_0_0_n_n.rhsIdx j q 0).val = (j 1).val := by
  unfold DotDims.rhsIdx
  rw [dif_neg (show ¬(0 : Fin S2074x2048.rank) ∈ dot_S512x2048_S2074x2048_S512x2074_1_1_0_0_n_n.rhsBatch by decide),
    dif_pos (show (0 : Fin S2074x2048.rank) ∈ dot_S512x2048_S2074x2048_S512x2074_1_1_0_0_n_n.rhsNonContracting by decide)]
  rfl
theorem rowsW_1 (j : S512x2074.Idx) (q : dot_S512x2048_S2074x2048_S512x2074_1_1_0_0_n_n.contr.Idx) :
    (dot_S512x2048_S2074x2048_S512x2074_1_1_0_0_n_n.rhsIdx j q 1).val = (q ⟨0, by decide⟩).val :=
  dot_S512x2048_S2074x2048_S512x2074_1_1_0_0_n_n.rhsIdx_val_of_single rfl j q

/-- Entry (p, f) of the first product into a zero block: row p of the x-block against row f of W. -/
theorem first_product_apply (a : FVec Ideal S512x2048 .bf16) (w : FVec Ideal S2074x2048 .bf16) (p : Fin 512) (f : Fin 2074) :
    FloatOps.matmul dot_S512x2048_S2074x2048_S512x2074_1_1_0_0_n_n none a w
        (constant (F := Ideal) S512x2074 .f32 0x00000000#32) (ix2 p f)
      = ∑ k : Fin 2048, a (ix2 p k) * w (ix2 f k) := by
  rw [Ideal.matmul_constant_zero_apply,
    ← Equiv.sum_comp (contrEquiv1 dot_S512x2048_S2074x2048_S512x2074_1_1_0_0_n_n 2048 rfl rfl).symm]
  refine Finset.sum_congr rfl fun k _ => ?_
  have hk := contrEquiv1_symm_val dot_S512x2048_S2074x2048_S512x2074_1_1_0_0_n_n 2048 rfl rfl k
  have el : dot_S512x2048_S2074x2048_S512x2074_1_1_0_0_n_n.lhsIdx (ix2 p f)
      ((contrEquiv1 dot_S512x2048_S2074x2048_S512x2074_1_1_0_0_n_n 2048 rfl rfl).symm k) = ix2 p k :=
    funext fun d => Fin.ext (by
      match d with
      | ⟨0, _⟩ => exact rowsX_0 _ _
      | ⟨1, _⟩ => exact (rowsX_1 _ _).trans hk)
  have er : dot_S512x2048_S2074x2048_S512x2074_1_1_0_0_n_n.rhsIdx (ix2 p f)
      ((contrEquiv1 dot_S512x2048_S2074x2048_S512x2074_1_1_0_0_n_n 2048 rfl rfl).symm k) = ix2 f k :=
    funext fun d => Fin.ext (by
      match d with
      | ⟨0, _⟩ => exact rowsW_0 _ _
      | ⟨1, _⟩ => exact (rowsW_1 _ _).trans hk)
  rw [el, er]

/-! ## The second product: rows of the first product against columns of C -/

theorem rowsP_0 (j : S512x2048.Idx) (q : dot_S512x2074_S2074x2048_S512x2048_1_0_0_1_n_n.contr.Idx) :
    (dot_S512x2074_S2074x2048_S512x2048_1_0_0_1_n_n.lhsIdx j q 0).val = (j 0).val := by
  unfold DotDims.lhsIdx
  rw [dif_neg (show ¬(0 : Fin S512x2074.rank) ∈ dot_S512x2074_S2074x2048_S512x2048_1_0_0_1_n_n.lhsBatch by decide),
    dif_pos (show (0 : Fin S512x2074.rank) ∈ dot_S512x2074_S2074x2048_S512x2048_1_0_0_1_n_n.lhsNonContracting by decide)]
  rfl
theorem rowsP_1 (j : S512x2048.Idx) (q : dot_S512x2074_S2074x2048_S512x2048_1_0_0_1_n_n.contr.Idx) :
    (dot_S512x2074_S2074x2048_S512x2048_1_0_0_1_n_n.lhsIdx j q 1).val = (q ⟨0, by decide⟩).val :=
  dot_S512x2074_S2074x2048_S512x2048_1_0_0_1_n_n.lhsIdx_val_of_single rfl j q
theorem colsC_0 (j : S512x2048.Idx) (q : dot_S512x2074_S2074x2048_S512x2048_1_0_0_1_n_n.contr.Idx) :
    (dot_S512x2074_S2074x2048_S512x2048_1_0_0_1_n_n.rhsIdx j q 0).val = (q ⟨0, by decide⟩).val :=
  dot_S512x2074_S2074x2048_S512x2048_1_0_0_1_n_n.rhsIdx_val_of_single rfl j q
theorem colsC_1 (j : S512x2048.Idx) (q : dot_S512x2074_S2074x2048_S512x2048_1_0_0_1_n_n.contr.Idx) :
    (dot_S512x2074_S2074x2048_S512x2048_1_0_0_1_n_n.rhsIdx j q 1).val = (j 1).val := by
  unfold DotDims.rhsIdx
  rw [dif_neg (show ¬(1 : Fin S2074x2048.rank) ∈ dot_S512x2074_S2074x2048_S512x2048_1_0_0_1_n_n.rhsBatch by decide),
    dif_pos (show (1 : Fin S2074x2048.rank) ∈ dot_S512x2074_S2074x2048_S512x2048_1_0_0_1_n_n.rhsNonContracting by decide)]
  rfl

/-- Entry (p, q) of the second product into a zero block: row p of its left operand against column q of C. -/
theorem second_product_apply (a : FVec Ideal S512x2074 .bf16) (cs : FVec Ideal S2074x2048 .bf16) (p : Fin 512) (q : Fin 2048) :
    FloatOps.matmul dot_S512x2074_S2074x2048_S512x2048_1_0_0_1_n_n none a cs
        (constant (F := Ideal) S512x2048 .f32 0x00000000#32) (ix2 p q)
      = ∑ f : Fin 2074, a (ix2 p f) * cs (ix2 f q) := by
  rw [Ideal.matmul_constant_zero_apply,
    ← Equiv.sum_comp (contrEquiv1 dot_S512x2074_S2074x2048_S512x2048_1_0_0_1_n_n 2074 rfl rfl).symm]
  refine Finset.sum_congr rfl fun f _ => ?_
  have hf := contrEquiv1_symm_val dot_S512x2074_S2074x2048_S512x2048_1_0_0_1_n_n 2074 rfl rfl f
  have el : dot_S512x2074_S2074x2048_S512x2048_1_0_0_1_n_n.lhsIdx (ix2 p q)
      ((contrEquiv1 dot_S512x2074_S2074x2048_S512x2048_1_0_0_1_n_n 2074 rfl rfl).symm f) = ix2 p f :=
    funext fun d => Fin.ext (by
      match d with
      | ⟨0, _⟩ => exact rowsP_0 _ _
      | ⟨1, _⟩ => exact (rowsP_1 _ _).trans hf)
  have er : dot_S512x2074_S2074x2048_S512x2048_1_0_0_1_n_n.rhsIdx (ix2 p q)
      ((contrEquiv1 dot_S512x2074_S2074x2048_S512x2048_1_0_0_1_n_n 2074 rfl rfl).symm f) = ix2 f q :=
    funext fun d => Fin.ext (by
      match d with
      | ⟨0, _⟩ => exact (colsC_0 _ _).trans hf
      | ⟨1, _⟩ => exact colsC_1 _ _)
  rw [el, er]

/-! ## The stored block -/

/-- Entry (p, q) of the block the body stores, from the three loaded blocks. -/
theorem payload_apply (x0 : Vec Ideal S512x2048 .bf16) (x1 x2 : Vec Ideal S2074x2048 .bf16) (p : Fin 512) (q : Fin 2048) :
    k0_pay1 (F := Ideal) x0 x1 x2 (ix2 p q)
      = ∑ f : Fin 2074, (∑ k : Fin 2048, x0 (ix2 p k) * x1 (ix2 f k)) * x2 (ix2 f q) := by
  unfold k0_pay1
  simp only [shapeCast_self, matmul]
  refine (second_product_apply _ x2 p q).trans ?_
  refine Finset.sum_congr rfl fun f _ => ?_
  refine congrArg (· * x2 (ix2 f q)) ?_
  exact first_product_apply x0 x1 p f

end Cert.FreqMix.Body

end
-- ==== Proof.Blocks.lean ====
/-
  From what each grid point writes back to the whole array the region leaves.

  The grid has eight points. Point t stages rows 512·t … 512·t + 511 of x (all 2048 columns), the whole of W and
  the whole of C, and writes back the same band of rows of the output. Entry (p, q) of the written block depends on
  row p of the staged x-band only, that is on row 512·t + p of x, and on all of W and C: it is entry
  (512·t + p, q) of (x · Wᵀ) · C. So every point writes a block of ONE matrix, `mix` of the three arguments; the
  eight bands cover all 4096 rows (row r lies in band r / 512), hence the array after the region is that matrix.
  The three host conversions before the region narrow the arguments' format, which on the extended reals changes
  nothing: the region finds the arguments themselves.
-/
import proofs.«115257_j68659347194252_1_alg».proof.Proof.Gen.KernelIdeal.Frame
import proofs.«115257_j68659347194252_1_alg».proof.Proof.Spec
import proofs.«115257_j68659347194252_1_alg».proof.Proof.Body
import Idealize.ShloMosaic.Lib.Pipeline.Value
import Idealize.ShloMosaic.Lib.StableHlo.Run

set_option maxRecDepth 16384

noncomputable section

namespace Cert.FreqMix.Blocks

open Cert.KernelIdeal Cert.KernelIdeal.Gen Cert.FreqMix
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ)

/-! ## One entry of a written block, over plain variables -/

/-- If a 512-row band `x0` holds row b of X in its row p, `x1` is W, and column q of `x2` is column l of C, then entry
    (p, q) of what the body stores is entry (b, l) of (X · Wᵀ) · C. -/
theorem block_entry (X : SX.Idx → EReal) (Wt Ct : SW.Idx → EReal)
    (x0 : Vec Ideal S512x2048 .bf16) (x1 x2 : Vec Ideal S2074x2048 .bf16)
    (y : S512x2048.Idx) (i : SX.Idx) (p : Fin 512) (q : Fin 2048) (b : Fin 4096) (l : Fin 2048)
    (hy : y = ix2 p q) (hi : i = ix2 b l)
    (h0 : ∀ k : Fin 2048, x0 (ix2 p k) = X (ix2 b k))
    (h1 : ∀ (f : Fin 2074) (k : Fin 2048), x1 (ix2 f k) = Wt (ix2 f k))
    (h2 : ∀ f : Fin 2074, x2 (ix2 f q) = Ct (ix2 f l)) :
    k0_pay1 (F := Ideal) x0 x1 x2 y = mix X Wt Ct i := by
  subst hy hi
  rw [Body.payload_apply, mix_ix2]
  unfold entry proj
  refine Finset.sum_congr rfl fun f _ => ?_
  rw [h2 f]
  refine congrArg (· * Ct (ix2 f l)) ?_
  refine Finset.sum_congr rfl fun k _ => ?_
  rw [h0 k, h1 f k]

/-! ## The arrays the region finds -/

/-- The region finds x itself in its first operand: the host conversion before it is the identity on the extended reals. -/
theorem found_x (c : Dev nD) : (V m c main_v0 : S4096x2048.Idx → EReal) = m ((c : Thread nD τ).loc main_arg0) := by
  show StableHlo.after hostOps0 (fun b => m (c, b)) (Proc.devRef .tc main_v0) = _
  after_results
  rfl
/-- The same for W. -/
theorem found_w (c : Dev nD) : (V m c main_v1 : S2074x2048.Idx → EReal) = m ((c : Thread nD τ).loc main_arg1) := by
  show StableHlo.after hostOps0 (fun b => m (c, b)) (Proc.devRef .tc main_v1) = _
  after_results
  rfl
/-- The same for C. -/
theorem found_c (c : Dev nD) : (V m c main_v2 : S2074x2048.Idx → EReal) = m ((c : Thread nD τ).loc main_arg2) := by
  show StableHlo.after hostOps0 (fun b => m (c, b)) (Proc.devRef .tc main_v2) = _
  after_results
  rfl

/-! ## The index maps, decided once over the eight points -/

theorem zero_offset : (![0, 0] : Fin 2 → Nat) = fun _ => 0 := funext fun a => by fin_cases a <;> rfl

/-- The x-band and the output band are the same band of rows, at column block 0; W and C are staged whole. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 7 :=
  (by decide +kernel : ∀ t : Fin grid0.N, _)

/-- Every band of rows is some point's. -/
theorem band_onto : ∀ q0 : Fin 8, ∃ t : Fin cfg0.N, win0_3.index t = ![q0.val, 0] :=
  (by decide +kernel : ∀ q0 : Fin 8, ∃ t : Fin grid0.N, win0_3.index t = ![q0.val, 0])

/-! ## What a point writes back -/

/-- What point `t` writes back is its block of `mix` of the three arguments. -/
theorem flushed_eq (c : Dev nD) (t : Fin cfg0.N) :
    (dats m 0 c).flushed 3 t = ((cfg0.win 3).blk t).view.read (Elt Ideal)
      (mix (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero zero_offset]
  simp only [View.ld_unit_zero (S := S512x2048) zero_offset, View.ld_unit_zero (S := S2074x2048) zero_offset]
  obtain ⟨e00, e01, e10, e11, e20, e21, e31, e30⟩ := idx_facts t
  funext j
  have hj0 : (j 0).val < 512 := (j 0).isLt
  have hj1 : (j 1).val < 2048 := (j 1).isLt
  have hb : win0_3.index t (0 : Fin 2) * 512 + (j 0).val < 4096 := by omega
  show k0_pay1 (F := Ideal) (iblk m c 0 t) (iblk m c 1 t) (iblk m c 2 t) j
    = mix (m ((c : Thread nD τ).loc main_arg0)) (m ((c : Thread nD τ).loc main_arg1)) (m ((c : Thread nD τ).loc main_arg2))
        (((cfg0.win 3).blk t).view.emb j)
  -- the entry's place in the block, and in the array
  have hy : j = ix2 (⟨(j 0).val, hj0⟩ : Fin 512) (⟨(j 1).val, hj1⟩ : Fin 2048) :=
    funext fun a => by match a with | ⟨0, _⟩ => rfl | ⟨1, _⟩ => rfl
  have hi : ((cfg0.win 3).blk t).view.emb j
      = ix2 (⟨win0_3.index t (0 : Fin 2) * 512 + (j 0).val, hb⟩ : Fin 4096) (⟨(j 1).val, hj1⟩ : Fin 2048) := by
    funext a; apply Fin.ext
    match a with
    | ⟨0, _⟩ => show win0_3.index t (0 : Fin 2) * 512 + 1 * (j 0).val = win0_3.index t (0 : Fin 2) * 512 + (j 0).val; omega
    | ⟨1, _⟩ => show win0_3.index t (1 : Fin 2) * 2048 + 1 * (j 1).val = (j 1).val; omega
  -- row p of the staged x-band is row 512·t + p of x
  have h0 : ∀ k : Fin 2048, iblk m c 0 t (ix2 (⟨(j 0).val, hj0⟩ : Fin 512) k)
      = m ((c : Thread nD τ).loc main_arg0) (ix2 (⟨win0_3.index t (0 : Fin 2) * 512 + (j 0).val, hb⟩ : Fin 4096) k) := by
    intro k
    show V m c main_v0 (((cfg0.win 0).blk t).view.emb (ix2 (⟨(j 0).val, hj0⟩ : Fin 512) k)) = _
    rw [found_x m c]
    refine congrArg (m ((c : Thread nD τ).loc main_arg0)) ?_
    funext a; apply Fin.ext
    match a with
    | ⟨0, _⟩ => show win0_0.index t (0 : Fin 2) * 512 + 1 * (j 0).val = win0_3.index t (0 : Fin 2) * 512 + (j 0).val; omega
    | ⟨1, _⟩ => show win0_0.index t (1 : Fin 2) * 2048 + 1 * k.val = k.val; omega
  -- W is staged whole
  have h1 : ∀ (f : Fin 2074) (k : Fin 2048), iblk m c 1 t (ix2 f k) = m ((c : Thread nD τ).loc main_arg1) (ix2 f k) := by
    intro f k
    show V m c main_v1 (((cfg0.win 1).blk t).view.emb (ix2 f k)) = _
    rw [found_w m c]
    refine congrArg (m ((c : Thread nD τ).loc main_arg1)) ?_
    funext a; apply Fin.ext
    match a with
    | ⟨0, _⟩ => show win0_1.index t (0 : Fin 2) * 2074 + 1 * f.val = f.val; omega
    | ⟨1, _⟩ => show win0_1.index t (1 : Fin 2) * 2048 + 1 * k.val = k.val; omega
  -- C is staged whole
  have h2 : ∀ f : Fin 2074, iblk m c 2 t (ix2 f (⟨(j 1).val, hj1⟩ : Fin 2048))
      = m ((c : Thread nD τ).loc main_arg2) (ix2 f (⟨(j 1).val, hj1⟩ : Fin 2048)) := by
    intro f
    show V m c main_v2 (((cfg0.win 2).blk t).view.emb (ix2 f (⟨(j 1).val, hj1⟩ : Fin 2048))) = _
    rw [found_c m c]
    refine congrArg (m ((c : Thread nD τ).loc main_arg2)) ?_
    funext a; apply Fin.ext
    match a with
    | ⟨0, _⟩ => show win0_2.index t (0 : Fin 2) * 2074 + 1 * f.val = f.val; omega
    | ⟨1, _⟩ => show win0_2.index t (1 : Fin 2) * 2048 + 1 * (j 1).val = (j 1).val; omega
  exact block_entry (m ((c : Thread nD τ).loc main_arg0)) (m ((c : Thread nD τ).loc main_arg1)) (m ((c : Thread nD τ).loc main_arg2))
    (iblk m c 0 t) (iblk m c 1 t) (iblk m c 2 t) j (((cfg0.win 3).blk t).view.emb j)
    ⟨(j 0).val, hj0⟩ ⟨(j 1).val, hj1⟩ ⟨win0_3.index t (0 : Fin 2) * 512 + (j 0).val, hb⟩ ⟨(j 1).val, hj1⟩ hy hi h0 h1 h2

/-! ## The bands cover the array -/

/-- An index of the output array is in point `t`'s block iff each coordinate is in the block's range on its axis. -/
theorem mem_blk (t : Fin cfg0.N) (i : S4096x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v3).slice (win0_3.rect t)).set ↔ _
  rw [View.set_slice_whole, Rect.mem_set_unit]
  exact Iff.rfl

/-- Row r lies in the band of point r / 512, and every point writes its band back. -/
theorem covered (i : S4096x2048.Idx) :
    ∃ t : Fin cfg0.N, (cfg0.win 3).flush t = true ∧ i ∈ ((cfg0.win 3).blk t).view.set := by
  have hi0 : (i 0).val < 4096 := (i 0).isLt
  have hi1 : (i 1).val < 2048 := (i 1).isLt
  obtain ⟨t, ht⟩ := band_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-! ## The array after the region -/

/-- After the region the output array is (x · Wᵀ) · C of the three arguments. -/
theorem region_result (c : Dev nD) :
    (dats m 0 c).arrAt 3 cfg0.N
      = mix (m ((c : Thread nD τ).loc main_arg0)) (m ((c : Thread nD τ).loc main_arg1)) (m ((c : Thread nD τ).loc main_arg2)) :=
  (dats m 0 c).arrAt_eq_of_cover 3 _ (fun t _ => flushed_eq m c t) covered

end Cert.FreqMix.Blocks

end
-- ==== Proof.KernelRun.lean ====
/-
  The kernel program's run, with its result named.

  After the region the program applies four host operations to the region's output array: the maximum of all its
  entries (folded from -∞), that maximum spread over the matrix, and the entrywise quotient. These are the
  specification's `normalize`, applied to the array the region left, which is `mix` of the three arguments. The
  operations write only their own result buffers, so the three arguments end as they were launched.
-/
import proofs.«115257_j68659347194252_1_alg».proof.Proof.Gen.KernelIdeal.Frame
import proofs.«115257_j68659347194252_1_alg».proof.Proof.Spec
import proofs.«115257_j68659347194252_1_alg».proof.Proof.Blocks
import Idealize.ShloMosaic.Lib.StableHlo.Run

noncomputable section

namespace Cert.FreqMix.KernelRun

open Cert.KernelIdeal Cert.KernelIdeal.Gen Cert.FreqMix
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- The program's result buffer after the four host operations that follow the region: the region's output array,
    normalised. -/
theorem tail_result (c : Dev nD) :
    Pipeline.afterTail₀ cfgs (dats m) 0 (V0 m) [hostOps1] c main_v6
      = normalize reducesTo_S4096x2048_S_d0_1 h_S_ bcast_S_S4096x2048 ((dats m 0 c).arrAt 3 cfg0.N) := by
  have hX : Pipeline.withArrays (cfgs 0).spec c (V0 m c) (fun w => (dats m 0 c).arrAt w (cfgs 0).N) (Proc.devRef .tc main_v3)
      = (dats m 0 c).arrAt 3 cfg0.N :=
    Pipeline.withArrays_arr spec0 launch0.win.arr_inj c _ _ 3
  unfold Pipeline.afterTail₀
  show StableHlo.after hostOps1 _ (Proc.devRef .tc main_v6) = _
  after_results
  exact Eq.trans rfl (congrArg (normalize reducesTo_S4096x2048_S_d0_1 h_S_ bcast_S_S4096x2048) hX)

/-- Every weakly fair execution of the kernel program terminates with its result at the normalised product of the
    three arguments as launched, and the arguments unchanged. -/
theorem run : θ_run defs (onTc (τ := τ) (main (F := Ideal))) ⟨m, fun _ => 0, ρ⟩ (fun r => ∀ c : Dev nD,
      r.2.mem ((c.tc : Thread nD τ).loc main_v6)
        = normalize reducesTo_S4096x2048_S_d0_1 h_S_ bcast_S_S4096x2048
            (mix (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v6 (Pipeline.mem_restRefs_of main_v6 (by decide) (by decide))).trans
          ((tail_result m c).trans (congrArg (normalize reducesTo_S4096x2048_S_d0_1 h_S_ bcast_S_S4096x2048) (Blocks.region_result m c))),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.FreqMix.KernelRun

end
-- ==== Proof.lean ====
/- The proof of `Cert.Claim` (proofs.«115257_j68659347194252_1_alg».proof.Defs).

   Both programs take x : [4096, 2048] and W, C : [2074, 2048] and return  M / max M,  where M = (x · Wᵀ) · C, that is
   M[b,l] = ∑ f, (∑ k, x[b,k] · W[f,k]) · C[f,l],  and max M is the largest entry of M (the fold starts from -∞).

   The kernel narrows the three arguments' float format on the host, then computes M in eight bands of 512 rows: each
   grid point multiplies its band of x against the rows of W, narrows the result, multiplies that against C, and writes
   the band of M back; the host then takes the maximum and divides. The reference transposes W, forms the two products
   over the whole arrays, takes the maximum and divides. On the extended reals a change of format is the identity, a
   product accumulated into a zero block is the plain sum, and reading the transpose at an index turns the reference's
   Wᵀ[k,f] into W[f,k]: both programs sum the same products, grouped the same way, so M is one function of the
   arguments (`FreqMix.mix`, Proof/Spec.lean) on both sides, and neither side needs any law of the extended reals beyond
   re-indexing a finite sum; in particular the inputs' finiteness is never used. The four operations after M are the same
   on both sides and are carried as one function (`FreqMix.normalize`) of the matrix they are applied to.

   Proof/Body.lean reads the kernel body's two products at an index; Proof/Blocks.lean shows each grid point writes its
   band of `mix` and that the bands cover the array; Proof/KernelRun.lean reads the host operations after the region and
   states the kernel program's run; Proof/RefSide.lean reads the reference's result stage by stage. Here the three frame
   claims are the programs' runs with the result dropped, `preserves` is trivial (the idealized kernel is the kernel's own
   text, nothing was rewritten), and `algebraic` puts the two runs side by side. -/
import proofs.«115257_j68659347194252_1_alg».proof.Defs
import proofs.«115257_j68659347194252_1_alg».proof.Proof.Gen.Kernel
import proofs.«115257_j68659347194252_1_alg».proof.Proof.Gen.Kernel.Skeleton
import proofs.«115257_j68659347194252_1_alg».proof.Proof.Gen.Kernel.Launch
import proofs.«115257_j68659347194252_1_alg».proof.Proof.Gen.Kernel.Points
import proofs.«115257_j68659347194252_1_alg».proof.Proof.Gen.Kernel.Frame
import proofs.«115257_j68659347194252_1_alg».proof.Proof.Gen.KernelIdeal
import proofs.«115257_j68659347194252_1_alg».proof.Proof.Gen.KernelIdeal.Skeleton
import proofs.«115257_j68659347194252_1_alg».proof.Proof.Gen.KernelIdeal.Launch
import proofs.«115257_j68659347194252_1_alg».proof.Proof.Gen.KernelIdeal.Points
import proofs.«115257_j68659347194252_1_alg».proof.Proof.Gen.KernelIdeal.Frame
import proofs.«115257_j68659347194252_1_alg».proof.Proof.Gen.ReferenceIdeal
import proofs.«115257_j68659347194252_1_alg».proof.Proof.Gen.Pre_finite_inputs
import proofs.«115257_j68659347194252_1_alg».proof.Proof.Gen.ReferenceIdeal.Run
import proofs.«115257_j68659347194252_1_alg».proof.Proof.Gen.ReferenceIdeal.Read
import proofs.«115257_j68659347194252_1_alg».proof.Proof.Spec
import proofs.«115257_j68659347194252_1_alg».proof.Proof.RefSide
import proofs.«115257_j68659347194252_1_alg».proof.Proof.KernelRun
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten for its reading on the extended reals: there is nothing to preserve. -/
theorem preserves : Cert.preserves_Kernel_KernelIdeal := trivial

/-- From memories that agree on x, W and C both programs end with the normalised product (x · Wᵀ) · C / max in their
    result buffers: the kernel by its run, the reference by its run read stage by stage, both at the same term. -/
theorem algebraic : Cert.algebraic_KernelIdeal_ReferenceIdeal := by
  intro m ρ m' ρ' _ hagree
  refine ⟨_, Cert.FreqMix.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v5_eq _ _ _).trans (Cert.FreqMix.Ref.result_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
